-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S16x2048x1024 : Shape := ⟨3, ![16, 2048, 1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn {F : FTy → Type} [FloatOps F] (main_arg0 : FVec F S16x512x1024 .f32) (main_arg1 : FVec F S16x2048x1024 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  main_v8
-- ==== Kernel.lean ====
abbrev S16x512x1024 : Shape := ⟨3, ![16, 512, 1024]⟩
abbrev S16x2048x1024 : Shape := ⟨3, ![16, 2048, 1024]⟩
abbrev S16x2048x2048 : Shape := ⟨3, ![16, 2048, 2048]⟩
abbrev S1x512x1024 : Shape := ⟨3, ![1, 512, 1024]⟩
abbrev S1x512x2048 : Shape := ⟨3, ![1, 512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x512x1024, .f32⟩
  | .hbm, ⟨1, _⟩ => ⟨S16x2048x1024, .f32⟩
  | .hbm, ⟨2, _⟩ => ⟨S16x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x2048, .f32⟩
  | .local _ .vmem, ⟨5, _⟩ => ⟨S1x512x2048, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  inb_S1x512x2048_S1x512x1024_0_0_1024 : ∀ a, (![0, 0, 1024] : Fin 3 → Nat) a + S1x512x1024.size a ≤ S1x512x2048.size a
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x2048x1024.size a
  hwx0_1 : ∀ i : grid0.Coords, EltTy.bits .f32 = 32 ∨ (Rect.block (s := S16x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x2048x2048.size a
  hwx0_2 : ∀ i : grid0.Coords, EltTy.bits .f32 = 32 ∨ (Rect.block (s := S16x2048x2048) S1x512x2048.size (cc0_transform_2 i) (hinb0_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S16x2048x1024 : Shape := ⟨3, ![16, 2048, 1024]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x2048x1024, .f32⟩
  | .hbm, ⟨2, _⟩ => ⟨S16x2048x512, .f32⟩
  | .hbm, ⟨3, _⟩ => ⟨S_, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S16x2048x1, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S16x2048x512, .f32⟩
  | .hbm, ⟨16, _⟩ => ⟨S16x2048x512, .f32⟩
  | .hbm, ⟨17, _⟩ => ⟨S16x2048x1024, .f32⟩
  | .hbm, ⟨18, _⟩ => ⟨S16x2048x2048, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16x2048x512_S16x2048_d2 : S16x2048x512.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x512_0_1_2 : S16x2048x1.BroadcastsInDim S16x2048x512 (![0, 1, 2] : Fin 3 → Fin S16x2048x512.rank)
  concatenates_S16x2048x1024_S16x2048x1024_S16x2048x2048_d2 : Shape.Concatenates [S16x2048x1024, S16x2048x1024] S16x2048x2048 2
  dot_S16x2048x1024_S16x512x1024_S16x2048x512_2_2_1_1_0_0_wf : DotDims.WF S16x2048x1024 S16x512x1024 S16x2048x512 [2] [2] [1] [1] [0] [0]
  dot_S16x2048x512_S16x512x1024_S16x2048x1024_2_1_1_2_0_0_wf : DotDims.WF S16x2048x512 S16x512x1024 S16x2048x1024 [2] [1] [1] [2] [0] [0]

variable [Facts₀]

def dot_S16x2048x1024_S16x512x1024_S16x2048x512_2_2_1_1_0_0 : DotDims S16x2048x1024 S16x512x1024 S16x2048x512 where
  lhsContracting := [2]
  rhsContracting := [2]
  lhsNonContracting := [1]
  rhsNonContracting := [1]
  lhsBatch := [0]
  rhsBatch := [0]
  wf := dot_S16x2048x1024_S16x512x1024_S16x2048x512_2_2_1_1_0_0_wf
def dot_S16x2048x512_S16x512x1024_S16x2048x1024_2_1_1_2_0_0 : DotDims S16x2048x512 S16x512x1024 S16x2048x1024 where
  lhsContracting := [2]
  rhsContracting := [1]
  lhsNonContracting := [1]
  rhsNonContracting := [2]
  lhsBatch := [0]
  rhsBatch := [0]
  wf := dot_S16x2048x512_S16x512x1024_S16x2048x1024_2_1_1_2_0_0_wf

class Facts : Prop extends Facts₀ where

variable [Facts]
-- ==== Proof.AttnRow.lean ====
/-
  Cross attention of context rows over a question matrix, and its result laid beside the context.

  For one batch member let `Q` be the question matrix (rows `q`, features `k`) and `c` one context row. The row's
  scores are the inner products `s q = ∑ k, c k * Q q k`; they are shifted by their largest value, exponentiated,
  and divided by the sum of the exponentials, which gives the row's weights; the attended row is the weighted sum
  of the question rows, `∑ q, w q * Q q d`. The result array has, for batch member `b` and context row `r`, the
  context row itself on its first 1024 entries and the attended row on the next 1024.

  Everything is stated on the extended reals with the operations the idealized programs use (`Ideal.exp`,
  `Ideal.div`), so no hypothesis on the entries is needed anywhere below: the two programs are compared as
  arrangements of one term, and the only laws used are that a finite sum and a fold of `max` do not depend on the
  order of their terms, that zero is neutral for the sum, and that a value already below a maximum does not change it.
-/
import Idealize.ShloMosaic.PureOps.Ideal
import Idealize.ShloMosaic.PureOps.Ideal.Laws
import Idealize.ShloMosaic.Lib.ValueIdx

noncomputable section

namespace Cert.CrossAttn

open Idealize.ShloMosaic Idealize.ShloMosaic.ValueIdx

variable {n e : ℕ}

/-- The score of question row `q` against a context row: their inner product over the feature axis. -/
def score (Q : Fin n → Fin e → EReal) (c : Fin e → EReal) (q : Fin n) : EReal := ∑ k : Fin e, c k * Q q k

/-- The largest score of the row, as a fold of `max` from the value of the word both programs start from. -/
def peak (Q : Fin n → Fin e → EReal) (c : Fin e → EReal) : EReal :=
  (Finset.univ : Finset (Fin n)).fold max (Ideal.ofBits .f32 0xFF800000#32) (score Q c)

/-- The exponential of a score shifted by the row's largest. -/
def expo (Q : Fin n → Fin e → EReal) (c : Fin e → EReal) (q : Fin n) : EReal := Ideal.exp (score Q c q - peak Q c)

/-- The row's weight on question row `q`: its exponential over the sum of the row's exponentials. -/
def weight (Q : Fin n → Fin e → EReal) (c : Fin e → EReal) (q : Fin n) : EReal :=
  Ideal.div (expo Q c q) (∑ q' : Fin n, expo Q c q')

/-- The attended row: the question rows summed with the row's weights, at feature `d`. -/
def attnRow (Q : Fin n → Fin e → EReal) (c : Fin e → EReal) (d : Fin e) : EReal := ∑ q : Fin n, weight Q c q * Q q d

/-- Starting the maximum from a value and then taking the maximum with that value again changes nothing. -/
theorem max_init_fold (b : EReal) (f : Fin n → EReal) :
    max b ((Finset.univ : Finset (Fin n)).fold max b f) = (Finset.univ : Finset (Fin n)).fold max b f :=
  max_eq_right ((Finset.le_fold_max b).mpr (Or.inl le_rfl))

/-- The result at batch member `b`, context row `r`, entry `j`: the context row on the first 1024 entries, the
    attended row on the rest. -/
def resultAt (x0 : (⟨3, ![16, 512, 1024]⟩ : Shape).Idx → EReal) (x1 : (⟨3, ![16, 2048, 1024]⟩ : Shape).Idx → EReal)
    (b : Fin 16) (r : Fin 2048) (j : Fin 2048) : EReal :=
  if h : j.val < 1024 then x1 (ix3 b r ⟨j.val, h⟩)
  else attnRow (fun q k => x0 (ix3 b q k)) (fun k => x1 (ix3 b r k)) ⟨j.val - 1024, by have := j.isLt; omega⟩

/-- The whole result array as one function of the question array `x0` and the context array `x1`. -/
def result (x0 : (⟨3, ![16, 512, 1024]⟩ : Shape).Idx → EReal) (x1 : (⟨3, ![16, 2048, 1024]⟩ : Shape).Idx → EReal) :
    (⟨3, ![16, 2048, 2048]⟩ : Shape).Idx → EReal :=
  fun i => resultAt x0 x1 (i 0) (i 1) (i 2)

theorem result_ix3 (x0 : (⟨3, ![16, 512, 1024]⟩ : Shape).Idx → EReal) (x1 : (⟨3, ![16, 2048, 1024]⟩ : Shape).Idx → EReal)
    (b : Fin 16) (r : Fin 2048) (j : Fin 2048) : result x0 x1 (ix3 b r j) = resultAt x0 x1 b r j := rfl

end Cert.CrossAttn

end
-- ==== Proof.RefValue.lean ====
/-
  The reference's result, read one host operation at a time, is the attention result of AttnRow.lean.

  For batch member `b` and context row `r` write `Q q k = x0 (b, q, k)` for the question matrix and
  `c k = x1 (b, r, k)` for the context row. The reference computes, in order: the scores `∑ k, c k * Q q k` (its
  first product, contracted over the feature axis); their maximum over `q`, folded from the word `0xFF800000` and
  then joined once more with a broadcast of the same word, which changes nothing; the exponentials of the shifted
  scores; their sum over `q` from a zero initial value; the quotients; the second product `∑ q, w q * Q q d`; and
  the concatenation of the context with that product along the last axis.
-/
import proofs.«118075_j16381005267227_2_alg».proof.Proof.Gen.ReferenceIdeal.Read
import proofs.«118075_j16381005267227_2_alg».proof.Proof.AttnRow
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.CrossAttn

variable (x0 : (⟨S16x512x1024, .f32⟩ : BufTy).Contents (Elt Ideal)) (x1 : (⟨S16x2048x1024, .f32⟩ : BufTy).Contents (Elt Ideal))

/-- The question matrix of batch member `b`. -/
abbrev Qof (b : Fin 16) : Fin 512 → Fin 1024 → EReal := fun q k => x0 (ix3 b q k)
/-- Context row `r` of batch member `b`. -/
abbrev cof (b : Fin 16) (r : Fin 2048) : Fin 1024 → EReal := fun k => x1 (ix3 b r k)

/-- The first product at `(b, r, q)` is the score of question row `q` against context row `r`. -/
theorem scores_apply (b : Fin 16) (r : Fin 2048) (q : Fin 512) :
    val_main_v0 (F := Ideal) x0 x1 (ix3 b r q) = score (Qof x0 b) (cof x1 b r) q := by
  rw [val_main_v0_apply]
  unfold score
  refine Finset.sum_congr rfl fun k _ => ?_
  have el : lidx_main_v0 (ix3 b r q) k = ix3 b r k :=
    funext fun a => Fin.ext (by match a with | ⟨0, _⟩ => rfl | ⟨1, _⟩ => rfl | ⟨2, _⟩ => rfl)
  have er : ridx_main_v0 (ix3 b r q) k = ix3 b q k :=
    funext fun a => Fin.ext (by match a with | ⟨0, _⟩ => rfl | ⟨1, _⟩ => rfl | ⟨2, _⟩ => rfl)
  rw [el, er]

/-- The reduction over the last axis exists at these shapes; it names the index with a coordinate inserted. -/
theorem reduces_last : S16x2048x512.Reduces [2] S16x2048 := by decide

/-- Inserting `q` on the reduced axis of `(b, r)` gives `(b, r, q)`. -/
theorem lift_last (b : Fin 16) (r : Fin 2048) (q : Fin 512) : reduces_last.lift (ix2 b r) q = ix3 b r q :=
  funext fun a => Fin.ext (by match a with | ⟨0, _⟩ => rfl | ⟨1, _⟩ => rfl | ⟨2, _⟩ => rfl)

/-- The maximum the reference subtracts at `(b, r)` is the largest score of the row: the host's reduction over `q` is
    the fold of `max` from its initial word, and the further `max` with that word is absorbed. -/
theorem peak_apply (b : Fin 16) (r : Fin 2048) :
    val_main_v3 (F := Ideal) x0 x1 (ix2 b r) = peak (Qof x0 b) (cof x1 b r) := by
  rw [val_main_v3_apply, val_main_v2_apply, val_main_cst_0_apply]
  unfold val_main_v1
  have hfold := Host.reduce_eq_fold_single (FloatOps.maximumf (F := Ideal) (φ := .f32)) (val_main_v0 (F := Ideal) x0 x1)
    (val_main_cst (F := Ideal)) reducesTo_S16x2048x512_S16x2048_d2 reduces_last h_S_ (ix2 b r)
  rw [hfold, val_main_cst_apply]
  have hf : (val_main_v0 (F := Ideal) x0 x1 ∘ reduces_last.lift (ix2 b r)) = score (Qof x0 b) (cof x1 b r) :=
    funext fun (q : Fin 512) => by
      show val_main_v0 (F := Ideal) x0 x1 (reduces_last.lift (ix2 b r) q) = _
      rw [lift_last, scores_apply]
  rw [hf]
  exact max_init_fold _ _

/-- The exponential at `(b, r, q)`. -/
theorem expo_apply (b : Fin 16) (r : Fin 2048) (q : Fin 512) :
    val_main_v7 (F := Ideal) x0 x1 (ix3 b r q) = expo (Qof x0 b) (cof x1 b r) q := by
  rw [val_main_v7_apply, val_main_v6_apply, val_main_v5_apply, val_main_v4_apply]
  have ei : idx_main_v4 (idx_main_v5 (ix3 b r q)) = ix2 b r :=
    funext fun a => Fin.ext (by match a with | ⟨0, _⟩ => rfl | ⟨1, _⟩ => rfl)
  rw [ei, peak_apply, scores_apply]
  rfl

/-- The sum the reference divides by at `(b, r, q)`: the row's exponentials summed, the zero initial value dropped. -/
theorem denom_apply (b : Fin 16) (r : Fin 2048) (q : Fin 512) :
    val_main_v10 (F := Ideal) x0 x1 (ix3 b r q) = ∑ q' : Fin 512, expo (Qof x0 b) (cof x1 b r) q' := by
  rw [val_main_v10_apply, val_main_v9_apply]
  have ei : idx_main_v9 (idx_main_v10 (ix3 b r q)) = ix2 b r :=
    funext fun a => Fin.ext (by match a with | ⟨0, _⟩ => rfl | ⟨1, _⟩ => rfl)
  rw [ei, val_main_v8_apply, val_main_cst_1_apply, Ideal.ofBits_def, Ideal.ofBits_zero_f32, zero_add]
  refine Finset.sum_congr rfl fun k _ => ?_
  have ek : idx_main_v8 (ix2 b r) k = ix3 b r k :=
    funext fun a => Fin.ext (by match a with | ⟨0, _⟩ => rfl | ⟨1, _⟩ => rfl | ⟨2, _⟩ => rfl)
  rw [ek, expo_apply]

/-- The quotient at `(b, r, q)` is the row's weight on question row `q`. -/
theorem weight_apply (b : Fin 16) (r : Fin 2048) (q : Fin 512) :
    val_main_v11 (F := Ideal) x0 x1 (ix3 b r q) = weight (Qof x0 b) (cof x1 b r) q := by
  rw [val_main_v11_apply, expo_apply, denom_apply]
  rfl

/-- The second product at `(b, r, d)` is the attended row at feature `d`. -/
theorem attn_apply (b : Fin 16) (r : Fin 2048) (d : Fin 1024) :
    val_main_v12 (F := Ideal) x0 x1 (ix3 b r d) = attnRow (Qof x0 b) (cof x1 b r) d := by
  rw [val_main_v12_apply]
  unfold attnRow
  refine Finset.sum_congr rfl fun k _ => ?_
  have el : lidx_main_v12 (ix3 b r d) k = ix3 b r k :=
    funext fun a => Fin.ext (by match a with | ⟨0, _⟩ => rfl | ⟨1, _⟩ => rfl | ⟨2, _⟩ => rfl)
  have er : ridx_main_v12 (ix3 b r d) k = ix3 b k d :=
    funext fun a => Fin.ext (by match a with | ⟨0, _⟩ => rfl | ⟨1, _⟩ => rfl | ⟨2, _⟩ => rfl)
  rw [el, er, weight_apply]

/-- The reference's result array is the attention result: the concatenation reads the context below entry 1024 and
    the second product, 1024 entries back, from there on. -/
theorem result_eq : val_main_v13 (F := Ideal) x0 x1 = result x0 x1 := by
  funext i
  obtain ⟨b, r, j, rfl⟩ : ∃ (b : Fin 16) (r : Fin 2048) (j : Fin 2048), i = ix3 b r j := ⟨i 0, i 1, i 2, eq_ix3 i⟩
  rw [result_ix3]
  unfold val_main_v13 resultAt
  by_cases h : j.val < 1024
  · rw [dif_pos h]
    exact concatenate_pair_apply_left 2 x1 (val_main_v12 (F := Ideal) x0 x1)
      concatenates_S16x2048x1024_S16x2048x1024_S16x2048x2048_d2 (ix3 b r j) rfl (ix3 b r ⟨j.val, h⟩)
      (fun a => by match a with | ⟨0, _⟩ => rfl | ⟨1, _⟩ => rfl | ⟨2, _⟩ => rfl)
  · rw [dif_neg h]
    have hj : j.val - 1024 < 1024 := by have := j.isLt; omega
    rw [concatenate_pair_apply_right 2 x1 (val_main_v12 (F := Ideal) x0 x1)
      concatenates_S16x2048x1024_S16x2048x1024_S16x2048x2048_d2 (ix3 b r j) rfl rfl (ix3 b r ⟨j.val - 1024, hj⟩)
      (fun a hne => by
        match a with
        | ⟨0, _⟩ => rfl
        | ⟨1, _⟩ => rfl
        | ⟨2, _⟩ => exact absurd rfl hne)
      (by show j.val - 1024 + 1024 = j.val; omega)]
    exact attn_apply x0 x1 b r ⟨j.val - 1024, hj⟩

end Cert.ReferenceIdeal.RefValue

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.TileValue.lean ====
/-
  What the kernel body computes on one tile, entry by entry.

  At a grid point the body holds the question block `qb` of one batch member, `[1, 512, 1024]`, and a tile `cb` of
  512 context rows, `[1, 512, 1024]`. Its first store writes the tile back unchanged (two reshapes that undo each
  other). Its second store writes, for tile row `p` and feature `d`, the attended row of AttnRow.lean with question
  matrix `Q q k = qb (0, q, k)` and context row `c k = cb (0, p, k)`: the scores are a product into a zero
  accumulator contracted over the features; their maximum and the sum of the exponentials are lane reductions kept
  as a one-column matrix and repeated along the row; the quotient is taken entry by entry; the two changes of float
  format are the identity on the extended reals; and the last product, again into a zero accumulator, is contracted
  over the question rows.
-/
import proofs.«118075_j16381005267227_2_alg».proof.Proof.Gen.KernelIdeal.Skeleton
import proofs.«118075_j16381005267227_2_alg».proof.Proof.AttnRow
import proofs.«118075_j16381005267227_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen
open Idealize.ShloMosaic Idealize.ShloMosaic.ValueIdx Cert.CrossAttn Cert.Attn.Layout

variable (qb cb : Vec Ideal S1x512x1024 .f32)

/-- The question block as a matrix of rows `q` and features `k`. -/
abbrev Qblk : Fin 512 → Fin 1024 → EReal := fun q k => qb (ix3 (0 : Fin 1) q k)
/-- Row `p` of the context tile. -/
abbrev crow (p : Fin 512) : Fin 1024 → EReal := fun k => cb (ix3 (0 : Fin 1) p k)

/-- The question block with its unit axis dropped. -/
def qmat : FVec Ideal S512x1024 .f32 := shapeCast S512x1024 qb shapeCasts_S1x512x1024_S512x1024

/-- The tile's scores: context rows against question rows, contracted over the features, into a zero accumulator. -/
def tileScores : FVec Ideal S512x512 .f32 :=
  matmul dot_S512x1024_S512x1024_S512x512_1_1_0_0_n_n (some .fp32) (k0_pay1 cb) (qmat qb) (constant S512x512 .f32 0x00000000#32)

/-- Each row's largest score, as a vector over the tile's rows. -/
def tilePeak : FVec Ideal S512 .f32 :=
  multiReduction .maximumf [1] S512 (tileScores qb cb) 0xFF800000#32 reduces_S512x512_S512 (.inl rfl) rfl

/-- The exponentials of the scores shifted by their row's largest. -/
def tileExpo : FVec Ideal S512x512 .f32 :=
  exp (subf (tileScores qb cb) (broadcastTo S512x512 (shapeCast S512x1 (tilePeak qb cb) shapeCasts_S512_S512x1) broadcasts_S512x1_S512x512))

/-- Each row's sum of exponentials. -/
def tileDenom : FVec Ideal S512 .f32 :=
  multiReduction .add [1] S512 (tileExpo qb cb) 0x00000000#32 reduces_S512x512_S512 (.inl rfl) rfl

/-- The tile's weights. -/
def tileWeights : FVec Ideal S512x512 .f32 :=
  divf (tileExpo qb cb) (broadcastTo S512x512 (shapeCast S512x1 (tileDenom qb cb) shapeCasts_S512_S512x1) broadcasts_S512x1_S512x512)

/-- The second store's payload is the product of the weights with the question matrix, given its unit axis back. -/
theorem pay3_eq : k0_pay3 qb cb
    = shapeCast S1x512x1024 (matmul dot_S512x512_S512x1024_S512x1024_1_0_0_1_n_n none (truncf .bf16 (tileWeights qb cb) bitsLt_bf16_f32)
        (truncf .bf16 (qmat qb) bitsLt_bf16_f32) (constant S512x1024 .f32 0x00000000#32)) shapeCasts_S512x1024_S1x512x1024 := rfl

/-! ## The operand entries a product reads

For an output entry and a contraction index, the coordinates of the two operand entries that are multiplied: a kept
axis carries the output's coordinate, the contracted axis the contraction index. -/

theorem scoresL_0 (i : S512x512.Idx) (κ : dot_S512x1024_S512x1024_S512x512_1_1_0_0_n_n.contr.Idx) : (dot_S512x1024_S512x1024_S512x512_1_1_0_0_n_n.lhsIdx i κ 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem scoresL_1 (i : S512x512.Idx) (κ : dot_S512x1024_S512x1024_S512x512_1_1_0_0_n_n.contr.Idx) : (dot_S512x1024_S512x1024_S512x512_1_1_0_0_n_n.lhsIdx i κ 1).val = (κ ⟨0, by decide⟩).val :=
  dot_S512x1024_S512x1024_S512x512_1_1_0_0_n_n.lhsIdx_val_of_single rfl i κ
theorem scoresR_0 (i : S512x512.Idx) (κ : dot_S512x1024_S512x1024_S512x512_1_1_0_0_n_n.contr.Idx) : (dot_S512x1024_S512x1024_S512x512_1_1_0_0_n_n.rhsIdx i κ 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem scoresR_1 (i : S512x512.Idx) (κ : dot_S512x1024_S512x1024_S512x512_1_1_0_0_n_n.contr.Idx) : (dot_S512x1024_S512x1024_S512x512_1_1_0_0_n_n.rhsIdx i κ 1).val = (κ ⟨0, by decide⟩).val :=
  dot_S512x1024_S512x1024_S512x512_1_1_0_0_n_n.rhsIdx_val_of_single rfl i κ

theorem mixL_0 (i : S512x1024.Idx) (κ : dot_S512x512_S512x1024_S512x1024_1_0_0_1_n_n.contr.Idx) : (dot_S512x512_S512x1024_S512x1024_1_0_0_1_n_n.lhsIdx i κ 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem mixL_1 (i : S512x1024.Idx) (κ : dot_S512x512_S512x1024_S512x1024_1_0_0_1_n_n.contr.Idx) : (dot_S512x512_S512x1024_S512x1024_1_0_0_1_n_n.lhsIdx i κ 1).val = (κ ⟨0, by decide⟩).val :=
  dot_S512x512_S512x1024_S512x1024_1_0_0_1_n_n.lhsIdx_val_of_single rfl i κ
theorem mixR_0 (i : S512x1024.Idx) (κ : dot_S512x512_S512x1024_S512x1024_1_0_0_1_n_n.contr.Idx) : (dot_S512x512_S512x1024_S512x1024_1_0_0_1_n_n.rhsIdx i κ 0).val = (κ ⟨0, by decide⟩).val :=
  dot_S512x512_S512x1024_S512x1024_1_0_0_1_n_n.rhsIdx_val_of_single rfl i κ
theorem mixR_1 (i : S512x1024.Idx) (κ : dot_S512x512_S512x1024_S512x1024_1_0_0_1_n_n.contr.Idx) : (dot_S512x512_S512x1024_S512x1024_1_0_0_1_n_n.rhsIdx i κ 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-! ## The stages at an entry -/

theorem qmat_apply (q : Fin 512) (k : Fin 1024) : qmat qb (ix2 q k) = Qblk qb q k :=
  shapeCast_1ab_ab_apply qb shapeCasts_S1x512x1024_S512x1024 q k

theorem cmat_apply (p : Fin 512) (k : Fin 1024) : k0_pay1 cb (ix2 p k) = crow cb p k :=
  shapeCast_1ab_ab_apply cb shapeCasts_S1x512x1024_S512x1024 p k

/-- The first store's payload is the context tile itself. -/
theorem pay2_apply (u : Fin 1) (p : Fin 512) (k : Fin 1024) : k0_pay2 cb (ix3 u p k) = cb (ix3 (0 : Fin 1) p k) := by
  unfold k0_pay2
  exact (shapeCast_ab_1ab_apply (k0_pay1 cb) shapeCasts_S512x1024_S1x512x1024 u p k).trans (cmat_apply cb p k)

/-- A score of the tile: the inner product of a context row with a question row. -/
theorem scores_apply (p q : Fin 512) : tileScores qb cb (ix2 p q) = score (Qblk qb) (crow cb p) q := by
  unfold tileScores score
  simp only [matmul]
  rw [Ideal.matmul_constant_zero_apply,
    ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q)
      ((ValueIdx.contrEquiv1 dot_S512x1024_S512x1024_S512x512_1_1_0_0_n_n 1024 rfl rfl).symm k) = ix2 p k :=
    funext fun a => Fin.ext (by
      match a with
      | ⟨0, _⟩ => exact scoresL_0 _ _
      | ⟨1, _⟩ => exact (scoresL_1 _ _).trans hk)
  have er : dot_S512x1024_S512x1024_S512x512_1_1_0_0_n_n.rhsIdx (ix2 p q)
      ((ValueIdx.contrEquiv1 dot_S512x1024_S512x1024_S512x512_1_1_0_0_n_n 1024 rfl rfl).symm k) = ix2 q k :=
    funext fun a => Fin.ext (by
      match a with
      | ⟨0, _⟩ => exact scoresR_0 _ _
      | ⟨1, _⟩ => exact (scoresR_1 _ _).trans hk)
  rw [el, er, cmat_apply, qmat_apply]

/-- Inserting `q` on the reduced axis of row `p` gives `(p, q)`. -/
theorem lift_row (p q : Fin 512) : reduces_S512x512_S512.lift (ix1 p) q = ix2 p q :=
  funext fun a => Fin.ext (by match a with | ⟨0, _⟩ => rfl | ⟨1, _⟩ => rfl)

/-- A row's largest score. -/
theorem peak_apply (p : Fin 512) : tilePeak qb cb (ix1 p) = peak (Qblk qb) (crow cb p) := by
  unfold tilePeak peak
  refine (Ideal.multiReduction_maximumf_single (tileScores qb cb) 0xFF800000#32 reduces_S512x512_S512 (.inl rfl) rfl (ix1 p)).trans ?_
  have hf : (tileScores qb cb ∘ reduces_S512x512_S512.lift (ix1 p)) = score (Qblk qb) (crow cb p) :=
    funext fun (q : Fin 512) => by
      show tileScores qb cb (reduces_S512x512_S512.lift (ix1 p) q) = _
      rw [lift_row, scores_apply]
  rw [hf]
  rfl

/-- An exponential of the tile. -/
theorem expo_apply (p q : Fin 512) : tileExpo qb cb (ix2 p q) = expo (Qblk qb) (crow cb p) q := by
  unfold tileExpo expo
  show Ideal.exp (tileScores qb cb (ix2 p q)
    - broadcastTo S512x512 (shapeCast S512x1 (tilePeak qb cb) shapeCasts_S512_S512x1) broadcasts_S512x1_S512x512 (ix2 p q)) = _
  rw [broadcastTo_a1_ab_apply, shapeCast_a_a1_apply, peak_apply, scores_apply]

/-- A row's sum of exponentials. -/
theorem denom_apply (p : Fin 512) : tileDenom qb cb (ix1 p) = ∑ q : Fin 512, expo (Qblk qb) (crow cb p) q := by
  unfold tileDenom
  refine (Ideal.multiReduction_add_single (tileExpo qb cb) 0x00000000#32 reduces_S512x512_S512 (.inl rfl) rfl (ix1 p)).trans ?_
  refine Finset.sum_congr rfl fun (q : Fin 512) _ => ?_
  rw [lift_row, expo_apply]

/-- A weight of the tile. -/
theorem weights_apply (p q : Fin 512) : tileWeights qb cb (ix2 p q) = weight (Qblk qb) (crow cb p) q := by
  unfold tileWeights weight
  show Ideal.div (tileExpo qb cb (ix2 p q))
    (broadcastTo S512x512 (shapeCast S512x1 (tileDenom qb cb) shapeCasts_S512_S512x1) broadcasts_S512x1_S512x512 (ix2 p q)) = _
  rw [broadcastTo_a1_ab_apply, shapeCast_a_a1_apply, denom_apply, expo_apply]

/-- THE SECOND STORE'S PAYLOAD at tile row `p` and feature `d` is the attended row. -/
theorem pay3_apply (u : Fin 1) (p : Fin 512) (d : Fin 1024) :
    k0_pay3 qb cb (ix3 u p d) = attnRow (Qblk qb) (crow cb p) d := by
  rw [pay3_eq, shapeCast_ab_1ab_apply]
  unfold attnRow
  simp only [matmul]
  rw [Ideal.matmul_constant_zero_apply,
    ← Equiv.sum_comp (ValueIdx.contrEquiv1 dot_S512x512_S512x1024_S512x1024_1_0_0_1_n_n 512 rfl rfl).symm]
  refine Finset.sum_congr rfl fun q _ => ?_
  have hq := ValueIdx.contrEquiv1_symm_val dot_S512x512_S512x1024_S512x1024_1_0_0_1_n_n 512 rfl rfl q
  have el : dot_S512x512_S512x1024_S512x1024_1_0_0_1_n_n.lhsIdx (ix2 p d)
      ((ValueIdx.contrEquiv1 dot_S512x512_S512x1024_S512x1024_1_0_0_1_n_n 512 rfl rfl).symm q) = ix2 p q :=
    funext fun a => Fin.ext (by
      match a with
      | ⟨0, _⟩ => exact mixL_0 _ _
      | ⟨1, _⟩ => exact (mixL_1 _ _).trans hq)
  have er : dot_S512x512_S512x1024_S512x1024_1_0_0_1_n_n.rhsIdx (ix2 p d)
      ((ValueIdx.contrEquiv1 dot_S512x512_S512x1024_S512x1024_1_0_0_1_n_n 512 rfl rfl).symm q) = ix2 q d :=
    funext fun a => Fin.ext (by
      match a with
      | ⟨0, _⟩ => exact (mixR_0 _ _).trans hq
      | ⟨1, _⟩ => exact mixR_1 _ _)
  rw [el, er, truncf_apply, truncf_apply, weights_apply, qmat_apply]

end Cert.KernelIdeal.TileValue

end
-- ==== Proof.BlockValue.lean ====
/-
  From what each grid point writes back to the whole result array.

  The grid has 16 × 4 points. Point (b, i) holds the question block of batch member b and rows 512·i … 512·i + 511 of
  that member's context, and writes back a [1, 512, 2048] block of the result: the context tile on entries 0 … 1023 of
  each row, the attended rows on entries 1024 … 2047. The two stores tile the block, so the block is one function of
  its own index; read through the array's indices it is the attention result of AttnRow.lean restricted to the
  block; and the 64 blocks tile the [16, 2048, 2048] array, so after the run the array is that result.
-/
import proofs.«118075_j16381005267227_2_alg».proof.Proof.Gen.KernelIdeal.Value
import proofs.«118075_j16381005267227_2_alg».proof.Proof.TileValue
import Idealize.ShloMosaic.Lib.Pipeline.Value

set_option maxRecDepth 16384

noncomputable section

namespace Cert.KernelIdeal.BlockValue

open Cert.KernelIdeal Cert.KernelIdeal.Gen Cert.KernelIdeal.TileValue
open Idealize.ShloMosaic Idealize.ShloMosaic.TcCoe Idealize.SL.Sem Idealize.ShloMosaic.ValueIdx Cert.CrossAttn
open Idealize.ShloMosaic.Pipeline (Dat)

/-! ## The block a point leaves, as one function of the block's index -/

section Block

variable (qb cb : Vec Ideal S1x512x1024 .f32)

/-- Row `p`, entry `j` of the block: the context tile below entry 1024, the attended row from there on. -/
def blockAt (p : Fin 512) (j : Fin 2048) : EReal :=
  if h : j.val < 1024 then cb (ix3 (0 : Fin 1) p ⟨j.val, h⟩)
  else attnRow (Qblk qb) (crow cb p) ⟨j.val - 1024, by have := j.isLt; omega⟩

/-- The block as a function of its index. -/
def blockResult : S1x512x2048.Idx → EReal := fun y => blockAt qb cb (y 1) (y 2)

theorem blockAt_lo (p : Fin 512) (k : Fin 1024) :
    blockAt qb cb p ⟨k.val, by have := k.isLt; omega⟩ = cb (ix3 (0 : Fin 1) p k) := by
  unfold blockAt
  split
  · rfl
  · rename_i h; exact absurd k.isLt h

theorem blockAt_hi (p : Fin 512) (d : Fin 1024) :
    blockAt qb cb p ⟨1024 + d.val, by have := d.isLt; omega⟩ = attnRow (Qblk qb) (crow cb p) d := by
  unfold blockAt
  split
  · rename_i h; exact absurd h (by show ¬ (1024 + d.val < 1024); omega)
  · exact congrArg (attnRow (Qblk qb) (crow cb p)) (Fin.ext (by show 1024 + d.val - 1024 = d.val; omega))

theorem zero_off : (![0, 0, 0] : Fin 3 → Nat) = fun _ => 0 := funext fun a => by fin_cases a <;> rfl

/-- The first store's payload is the block's function on the rectangle of entries 0 … 1023. -/
theorem lo_piece (x : S1x512x1024.Idx) : k0_pay2 (View.ld cb r0_0) x = blockResult qb cb (r0_1.emb x) := by
  obtain ⟨u, p, k, rfl⟩ : ∃ (u : Fin 1) (p : Fin 512) (k : Fin 1024), x = ix3 u p k := ⟨x 0, x 1, x 2, eq_ix3 x⟩
  simp only [View.ld_unit_zero (S := S1x512x1024) zero_off]
  rw [pay2_apply]
  have e1 : r0_1.emb (ix3 u p k) 1 = p := Fin.ext (by show 0 + 1 * p.val = p.val; omega)
  have e2 : r0_1.emb (ix3 u p k) 2 = (⟨k.val, by have := k.isLt; omega⟩ : Fin 2048) :=
    Fin.ext (by show 0 + 1 * k.val = k.val; omega)
  exact (blockAt_lo qb cb p k).symm.trans (congrArg₂ (blockAt qb cb) e1.symm e2.symm)

/-- The second store's payload is the block's function on the rectangle of entries 1024 … 2047. -/
theorem hi_piece (x : S1x512x1024.Idx) :
    k0_pay3 (View.ld qb r0_0) (View.ld cb r0_0) x = blockResult qb cb (r0_2.emb x) := by
  obtain ⟨u, p, d, rfl⟩ : ∃ (u : Fin 1) (p : Fin 512) (d : Fin 1024), x = ix3 u p d := ⟨x 0, x 1, x 2, eq_ix3 x⟩
  simp only [View.ld_unit_zero (S := S1x512x1024) zero_off]
  rw [pay3_apply]
  have e1 : r0_2.emb (ix3 u p d) 1 = p := Fin.ext (by show 0 + 1 * p.val = p.val; omega)
  have e2 : r0_2.emb (ix3 u p d) 2 = (⟨1024 + d.val, by have := d.isLt; omega⟩ : Fin 2048) :=
    Fin.ext (by show 1024 + 1 * d.val = 1024 + d.val; omega)
  exact (blockAt_hi qb cb p d).symm.trans (congrArg₂ (blockAt qb cb) e1.symm e2.symm)

/-- What the body leaves in the output block is that function: its two stores tile the block and each agrees with it. -/
theorem out_eq : out0_2 qb cb = blockResult qb cb := by
  funext y
  unfold out0_2
  refine View.canon_apply_of_pieces (Val := Elt Ideal) (S := S1x512x2048) (e := .f32) (blockResult qb cb) _ ?_ y (cover0_2 _ _ y)
  intro pc hpc x
  rcases List.mem_cons.mp hpc with rfl | hpc
  · exact hi_piece qb cb x
  · rcases List.mem_cons.mp hpc with rfl | hpc
    · exact lo_piece qb cb x
    · exact absurd hpc List.not_mem_nil

end Block

/-! ## A block read through the array's indices is the result restricted to it -/

/-- Row `p` of tile `i` is row `512·i + p` of the batch member's context. -/
def rowOf (i : Fin 4) (p : Fin 512) : Fin 2048 := ⟨512 * i.val + p.val, by have := i.isLt; have := p.isLt; omega⟩

/-- If the question block is batch member `b` of the question array and the context tile is tile `i` of that member's
    context, then the block's function at `(p, j)` is the result at `(b, 512·i + p, j)`. -/
theorem blockAt_eq_resultAt (x0 : S16x512x1024.Idx → EReal) (x1 : S16x2048x1024.Idx → EReal)
    (qb cb : Vec Ideal S1x512x1024 .f32) (b : Fin 16) (i : Fin 4)
    (hq : ∀ (q : Fin 512) (k : Fin 1024), qb (ix3 (0 : Fin 1) q k) = x0 (ix3 b q k))
    (hc : ∀ (p : Fin 512) (k : Fin 1024), cb (ix3 (0 : Fin 1) p k) = x1 (ix3 b (rowOf i p) k))
    (p : Fin 512) (j : Fin 2048) : blockAt qb cb p j = resultAt x0 x1 b (rowOf i p) j := by
  have hQ : Qblk qb = fun q k => x0 (ix3 b q k) := funext fun q => funext fun k => hq q k
  have hC : crow cb p = fun k => x1 (ix3 b (rowOf i p) k) := funext fun k => hc p k
  unfold blockAt resultAt
  by_cases h : j.val < 1024
  · rw [dif_pos h, dif_pos h]; exact hc p ⟨j.val, h⟩
  · rw [dif_neg h, dif_neg h, hQ, hC]

/-- The same for a whole block index `y` and the array index `g` it is read at: `g` is `(b, 512·i + y 1, y 2)`. -/
theorem block_read_eq (x0 : S16x512x1024.Idx → EReal) (x1 : S16x2048x1024.Idx → EReal)
    (qb cb : Vec Ideal S1x512x1024 .f32) (b : Fin 16) (i : Fin 4)
    (hq : ∀ (q : Fin 512) (k : Fin 1024), qb (ix3 (0 : Fin 1) q k) = x0 (ix3 b q k))
    (hc : ∀ (p : Fin 512) (k : Fin 1024), cb (ix3 (0 : Fin 1) p k) = x1 (ix3 b (rowOf i p) k))
    (y : S1x512x2048.Idx) (g : S16x2048x2048.Idx)
    (g0 : (g 0).val = b.val) (g1 : (g 1).val = 512 * i.val + (y 1).val) (g2 : (g 2).val = (y 2).val) :
    blockResult qb cb y = result x0 x1 g := by
  obtain ⟨u, p, j, rfl⟩ : ∃ (u : Fin 1) (p : Fin 512) (j : Fin 2048), y = ix3 u p j := ⟨y 0, y 1, y 2, eq_ix3 y⟩
  have hg : g = ix3 b (rowOf i p) j := funext fun a => Fin.ext (by
    match a with
    | ⟨0, _⟩ => exact g0
    | ⟨1, _⟩ => exact g1
    | ⟨2, _⟩ => exact g2)
  rw [hg, result_ix3]
  exact blockAt_eq_resultAt x0 x1 qb cb b i hq hc p j

/-! ## The grid: which blocks a point holds, what it writes back, and the cover -/

variable (m : (ℓ : Loc nD τ sig) → Buf (Elt Ideal) ℓ) (ρ : Dev nD → PrngReg)

/-- The printed index maps, decided over the 64 points: the question block follows the output's batch coordinate and
    stays at the origin otherwise; the context tile follows the output's batch and tile coordinates; the output's batch
    coordinate is below 16, its tile coordinate below 4, and it does not move along the last axis. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every (batch member, tile) pair is some point's output block. -/
theorem idx_onto : ∀ (b : Fin 16) (i : Fin 4), ∃ t : Fin cfg0.N, win0_2.index t = ![b.val, i.val, 0] :=
  (by decide +kernel : ∀ (b : Fin 16) (i : Fin 4), ∃ t : Fin grid0.N, win0_2.index t = ![b.val, i.val, 0])

/-- WHAT POINT `t` WRITES BACK is block `t` of the attention result of the argument arrays. -/
theorem flushed_eq (c : Dev nD) (t : Fin cfg0.N) :
    (dats m 0 c).flushed 2 t
      = ((cfg0.win 2).blk t).view.read (Elt Ideal) (result (V m c main_arg0) (V m c main_arg1)) := by
  show (cfg0.win 2).cut (grid0.coords t) ((dats m 0 c).after 2 t) = _
  rw [after0_2]
  have ho := out_eq (iblk m c 0 t) (iblk m c 1 t)
  rw [ho]
  obtain ⟨e00, e01, e02, e10, e11, e12, hb, hi, e22⟩ := idx_facts t
  have hq : ∀ (q : Fin 512) (k : Fin 1024), iblk m c 0 t (ix3 (0 : Fin 1) q k)
      = V m c main_arg0 (ix3 (⟨win0_2.index t (0 : Fin 3), by omega⟩ : Fin 16) q k) := fun q k => by
    show V m c main_arg0 (((cfg0.win 0).blk t).view.emb (ix3 (0 : Fin 1) q k)) = _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * q.val = q.val; omega
    | ⟨2, _⟩ => show win0_0.index t (2 : Fin 3) * 1024 + 1 * k.val = k.val; omega
  have hc : ∀ (p : Fin 512) (k : Fin 1024), iblk m c 1 t (ix3 (0 : Fin 1) p k)
      = V m c main_arg1 (ix3 (⟨win0_2.index t (0 : Fin 3), by omega⟩ : Fin 16)
          (rowOf (⟨win0_2.index t (1 : Fin 3), by omega⟩ : Fin 4) p) k) := fun p k => by
    show V m c main_arg1 (((cfg0.win 1).blk t).view.emb (ix3 (0 : Fin 1) p k)) = _
    refine congrArg (V m c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 512 + 1 * p.val = 512 * win0_2.index t (1 : Fin 3) + p.val; omega
    | ⟨2, _⟩ => show win0_1.index t (2 : Fin 3) * 1024 + 1 * k.val = k.val; omega
  funext y
  have hy0 : (y 0).val < 1 := (y 0).isLt
  exact block_read_eq (V m c main_arg0) (V m c main_arg1) (iblk m c 0 t) (iblk m c 1 t)
    (⟨win0_2.index t (0 : Fin 3), by omega⟩ : Fin 16) (⟨win0_2.index t (1 : Fin 3), by omega⟩ : Fin 4) hq hc y
    (((cfg0.win 2).blk t).view.emb y)
    (by show win0_2.index t (0 : Fin 3) * 1 + 1 * (y 0).val = win0_2.index t (0 : Fin 3); omega)
    (by show win0_2.index t (1 : Fin 3) * 512 + 1 * (y 1).val = 512 * win0_2.index t (1 : Fin 3) + (y 1).val; omega)
    (by show win0_2.index t (2 : Fin 3) * 2048 + 1 * (y 2).val = (y 2).val; omega)

/-- An index of the array is in point `t`'s block iff each coordinate is in the block's range on its axis. -/
theorem mem_blk (t : Fin cfg0.N) (i : S16x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0).slice (win0_2.rect t)).set ↔ _
  rw [View.set_slice_whole, Rect.mem_set_unit]
  exact Iff.rfl

/-- The 64 blocks cover the array: index `(b, r, j)` lies in the block of batch member `b`, tile `r / 512`. -/
theorem cover (i : S16x2048x2048.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 2048 := (i 2).isLt
  obtain ⟨t, ht⟩ := idx_onto ⟨(i 0).val, h0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE ARRAY after the run is the attention result of the argument arrays. -/
theorem array_eq (c : Dev nD) : (dats m 0 c).arrAt 2 cfg0.N = result (V m c main_arg0) (V m c main_arg1) :=
  (dats m 0 c).arrAt_eq_of_cover 2 (result (V m c main_arg0) (V m c main_arg1)) (fun t _ => flushed_eq m c t) cover

/-- The kernel's run, read: the result array ends at the attention result of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array_eq m c), (h c).2⟩) (Value.run_blocks m ρ)

end Cert.KernelIdeal.BlockValue

end
-- ==== Proof.lean ====
/-
  Cross attention with the context carried along: for question `Q` of shape [16, 512, 1024] and context `C` of shape
  [16, 2048, 1024] the result, of shape [16, 2048, 2048], holds for batch member `b` and context row `r` the row
  `C b r` on its first 1024 entries and on the next 1024 the attended row `∑ q, w q * Q b q d`, where the weights `w`
  are the exponentials of the scores `s q = ∑ k, C b r k * Q b q k` shifted by their maximum, over their sum.

  The kernel computes this 512 context rows at a time on a 16 × 4 grid, one batch member's question block against one
  context tile per point, and writes each [512, 2048] block with two stores; the reference computes it with two batched
  products, a row-wise softmax and a concatenation. On the extended reals the two are the same function of the
  arguments, entry by entry (AttnRow.lean states it; RefValue.lean reads it off the reference, TileValue.lean and
  BlockValue.lean off the kernel): products into a zero accumulator are plain sums, a sum and a maximum do not depend
  on the order of their terms, a change of float format is the identity, and the reference's extra maximum with its
  own starting value is absorbed. No property of the inputs is used.

  The three frames are the generated ones (the reference's is its generated run with the result dropped), and the
  idealization rewrote no operation, so there is nothing to preserve.
-/
import proofs.«118075_j16381005267227_2_alg».proof.Defs
import proofs.«118075_j16381005267227_2_alg».proof.Proof.Gen.Kernel
import proofs.«118075_j16381005267227_2_alg».proof.Proof.Gen.Kernel.Skeleton
import proofs.«118075_j16381005267227_2_alg».proof.Proof.Gen.Kernel.Launch
import proofs.«118075_j16381005267227_2_alg».proof.Proof.Gen.Kernel.Points
import proofs.«118075_j16381005267227_2_alg».proof.Proof.Gen.Kernel.Frame
import proofs.«118075_j16381005267227_2_alg».proof.Proof.Gen.KernelIdeal
import proofs.«118075_j16381005267227_2_alg».proof.Proof.Gen.KernelIdeal.Skeleton
import proofs.«118075_j16381005267227_2_alg».proof.Proof.Gen.KernelIdeal.Launch
import proofs.«118075_j16381005267227_2_alg».proof.Proof.Gen.KernelIdeal.Points
import proofs.«118075_j16381005267227_2_alg».proof.Proof.Gen.KernelIdeal.Frame
import proofs.«118075_j16381005267227_2_alg».proof.Proof.Gen.ReferenceIdeal
import proofs.«118075_j16381005267227_2_alg».proof.Proof.Gen.Pre_finite_inputs
import proofs.«118075_j16381005267227_2_alg».proof.Proof.Gen.KernelIdeal.Value
import proofs.«118075_j16381005267227_2_alg».proof.Proof.Gen.ReferenceIdeal.Run
import proofs.«118075_j16381005267227_2_alg».proof.Proof.Gen.ReferenceIdeal.Read
import proofs.«118075_j16381005267227_2_alg».proof.Proof.RefValue
import proofs.«118075_j16381005267227_2_alg».proof.Proof.BlockValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on the arguments both programs end with the attention result of those arguments: the
    kernel's array block by block, the reference's operation by operation. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
